-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S4096x4096 : Shape := ⟨2, ![4096, 4096]⟩
abbrev S4096x64 : Shape := ⟨2, ![4096, 64]⟩
abbrev S64x4096 : Shape := ⟨2, ![64, 4096]⟩
abbrev S4096 : Shape := ⟨1, ![4096]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096x64 : S_.BroadcastsInDim S4096x64 (![] : Fin 0 → Fin S4096x64.rank)
  reducesTo_S4096x64_S_d0_1 : S4096x64.ReducesTo [0, 1] S_
  bcast_S_S64x4096 : S_.BroadcastsInDim S64x4096 (![] : Fin 0 → Fin S64x4096.rank)
  reducesTo_S64x4096_S_d0_1 : S64x4096.ReducesTo [0, 1] S_
  bcast_S_S4096 : S_.BroadcastsInDim S4096 (![] : Fin 0 → Fin S4096.rank)
  reducesTo_S4096_S_d0 : S4096.ReducesTo [0] S_

variable [Facts]

def fn_part1 {F : FTy → Type} [FloatOps F] (main_arg4 : FVec F S4096 .f32) (main_v13 : IVec S_ 1) (main_v16 : IVec S64x4096 1) : IVec S_ 1 :=
  let main_c_5 : IVec S_ 1 := constantI S_ 1 1#1
  let main_v17 : IVec S_ 1 := (fun x v => Host.reduce IntOp.andi x v reducesTo_S64x4096_S_d0_1 h_S_) main_v16 main_c_5
  let main_v18 : IVec S_ 1 := andi main_v13 main_v17
  let main_v19 : FVec F S4096 .f32 := Host.absf main_arg4
  let main_cst_6 : FVec F S_ .f32 := constant S_ .f32 0x7F800000#32
  let main_v20 : FVec F S4096 .f32 := broadcastInDim S4096 ![] bcast_S_S4096 main_cst_6
  let main_v21 : IVec S4096 1 := cmpf .olt main_v19 main_v20
  let main_c_7 : IVec S_ 1 := constantI S_ 1 1#1
  let main_v22 : IVec S_ 1 := (fun x v => Host.reduce IntOp.andi x v reducesTo_S4096_S_d0 h_S_) main_v21 main_c_7
  let main_v23 : IVec S_ 1 := andi main_v18 main_v22
  main_v23

def fn {F : FTy → Type} [FloatOps F] (main_arg0 : FVec F S8192x4096 .f32) (main_arg1 : FVec F S4096x4096 .f32) (main_arg2 : FVec F S4096x64 .f32) (main_arg3 : FVec F S64x4096 .f32) (main_arg4 : FVec F S4096 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096x64 .f32 := Host.absf main_arg2
  let main_cst_2 : FVec F S_ .f32 := constant S_ .f32 0x7F800000#32
  let main_v10 : FVec F S4096x64 .f32 := broadcastInDim S4096x64 ![] bcast_S_S4096x64 main_cst_2
  let main_v11 : IVec S4096x64 1 := cmpf .olt main_v9 main_v10
  let main_c_3 : IVec S_ 1 := constantI S_ 1 1#1
  let main_v12 : IVec S_ 1 := (fun x v => Host.reduce IntOp.andi x v reducesTo_S4096x64_S_d0_1 h_S_) main_v11 main_c_3
  let main_v13 : IVec S_ 1 := andi main_v8 main_v12
  let main_v14 : FVec F S64x4096 .f32 := Host.absf main_arg3
  let main_cst_4 : FVec F S_ .f32 := constant S_ .f32 0x7F800000#32
  let main_v15 : FVec F S64x4096 .f32 := broadcastInDim S64x4096 ![] bcast_S_S64x4096 main_cst_4
  let main_v16 : IVec S64x4096 1 := cmpf .olt main_v14 main_v15
  fn_part1 (F := F) main_arg4 main_v13 main_v16
-- ==== Kernel.lean ====
abbrev S8192x4096 : Shape := ⟨2, ![8192, 4096]⟩
abbrev S4096x4096 : Shape := ⟨2, ![4096, 4096]⟩
abbrev S4096x64 : Shape := ⟨2, ![4096, 64]⟩
abbrev S64x4096 : Shape := ⟨2, ![64, 4096]⟩
abbrev S4096 : Shape := ⟨1, ![4096]⟩
abbrev S4096x48 : Shape := ⟨2, ![4096, 48]⟩
abbrev S48x4096 : Shape := ⟨2, ![48, 4096]⟩
abbrev S512x4096 : Shape := ⟨2, ![512, 4096]⟩
abbrev S512x48 : Shape := ⟨2, ![512, 48]⟩
abbrev S512 : Shape := ⟨1, ![512]⟩
abbrev S512x1 : Shape := ⟨2, ![512, 1]⟩
abbrev S1x4096 : Shape := ⟨2, ![1, 4096]⟩
abbrev S2048x4096 : Shape := ⟨2, ![2048, 4096]⟩
abbrev S1x512 : Shape := ⟨2, ![1, 512]⟩
abbrev S2048x512 : Shape := ⟨2, ![2048, 512]⟩

abbrev nBuf : Space → Nat
  | .hbm => 11
  | .vmem => 15
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S4096x64, .f32⟩
  | .hbm, ⟨3, _⟩ => ⟨S64x4096, .f32⟩
  | .hbm, ⟨4, _⟩ => ⟨S4096, .f32⟩
  | .hbm, ⟨5, _⟩ => ⟨S4096x48, .f32⟩
  | .hbm, ⟨6, _⟩ => ⟨S48x4096, .f32⟩
  | .hbm, ⟨7, _⟩ => ⟨S4096x4096, .bf16⟩
  | .hbm, ⟨8, _⟩ => ⟨S8192x4096, .bf16⟩
  | .hbm, ⟨9, _⟩ => ⟨S1x4096, .f32⟩
  | .hbm, ⟨10, _⟩ => ⟨S8192x4096, .f32⟩
  | .local _ .vmem, ⟨0, _⟩ => ⟨S512x4096, .f32⟩
  | .local _ .vmem, ⟨1, _⟩ => ⟨S512x4096, .f32⟩
  | .local _ .vmem, ⟨2, _⟩ => ⟨S512x48, .f32⟩
  | .local _ .vmem, ⟨3, _⟩ => ⟨S512x48, .f32⟩
  | .local _ .vmem, ⟨4, _⟩ => ⟨S48x4096, .f32⟩
  | .local _ .vmem, ⟨5, _⟩ => ⟨S512x4096, .bf16⟩
  | .local _ .vmem, ⟨6, _⟩ => ⟨S512x4096, .bf16⟩
  | .local _ .vmem, ⟨7, _⟩ => ⟨S2048x4096, .bf16⟩
  | .local _ .vmem, ⟨8, _⟩ => ⟨S2048x4096, .bf16⟩
  | .local _ .vmem, ⟨9, _⟩ => ⟨S512x4096, .bf16⟩
  | .local _ .vmem, ⟨10, _⟩ => ⟨S512x4096, .bf16⟩
  | .local _ .vmem, ⟨11, _⟩ => ⟨S1x512, .f32⟩
  | .local _ .vmem, ⟨12, _⟩ => ⟨S1x512, .f32⟩
  | .local _ .vmem, ⟨13, _⟩ => ⟨S2048x512, .f32⟩
  | .local _ .vmem, ⟨14, _⟩ => ⟨S2048x512, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_stg3_0 : Ref sig .tc := ⟨.vmem, 13, rfl⟩
abbrev cc1_stg3_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem2_1 : DmaSem sig := 12
abbrev cc1_sem3_0 : DmaSem sig := 13
abbrev cc1_sem3_1 : DmaSem sig := 14

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x48 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S48x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨2, ![4, 8], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S2048x4096 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S512x4096 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 2 → Memref sig .tc .vmem S2048x512 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

class Facts₀ : Prop where
  slices_S4096x64_S4096x48_0_0 : S4096x64.Slices ![0, 0] S4096x48
  slices_S64x4096_S48x4096_0_0 : S64x4096.Slices ![0, 0] S48x4096
  inb_S512x48_S512x48_0_0 : ∀ a, (![0, 0] : Fin 2 → Nat) a + S512x48.size a ≤ S512x48.size a
  h_S512x48 : 0 < S512x48.numel
  shapeCasts_S512x48_S512x48 : S512x48.ShapeCasts S512x48
  inb_S48x4096_S48x4096_0_0 : ∀ a, (![0, 0] : Fin 2 → Nat) a + S48x4096.size a ≤ S48x4096.size a
  h_S48x4096 : 0 < S48x4096.numel
  shapeCasts_S48x4096_S48x4096 : S48x4096.ShapeCasts S48x4096
  inb_S512x4096_S512x4096_0_0 : ∀ a, (![0, 0] : Fin 2 → Nat) a + S512x4096.size a ≤ S512x4096.size a
  h_S512x4096 : 0 < S512x4096.numel
  reduces_S512x4096_S512 : S512x4096.Reduces [1] S512
  shapeCasts_S512_S512x1 : S512.ShapeCasts S512x1
  broadcasts_S512x1_S512x4096 : S512x1.Broadcasts S512x4096
  bitsLt_bf16_f32 : FTy.bits .bf16 < FTy.bits .f32
  packedbf16_S512x4096_S512x4096_0_0 : (Rect.unit (s := S512x4096) ![0, 0] S512x4096.size inb_S512x4096_S512x4096_0_0).PackedRows (EltTy.packing .bf16)
  shapeCasts_S4096_S1x4096 : S4096.ShapeCasts S1x4096
  inb_S2048x4096_S2048x4096_0_0 : ∀ a, (![0, 0] : Fin 2 → Nat) a + S2048x4096.size a ≤ S2048x4096.size a
  h_S2048x4096 : 0 < S2048x4096.numel
  shapeCasts_S2048x4096_S2048x4096 : S2048x4096.ShapeCasts S2048x4096
  shapeCasts_S512x4096_S512x4096 : S512x4096.ShapeCasts S512x4096
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S2048x512 : S1x512.Broadcasts S2048x512
  inb_S2048x512_S2048x512_0_0 : ∀ a, (![0, 0] : Fin 2 → Nat) a + S2048x512.size a ≤ S2048x512.size a
  h_S2048x512 : 0 < S2048x512.numel
  dot_S512x48_S48x4096_S512x4096_1_0_0_1_n_n_wf : DotDims.WF S512x48 S48x4096 S512x4096 [1] [0] [0] [1] [] []
  dot_S2048x4096_S512x4096_S2048x512_1_1_0_0_n_n_wf : DotDims.WF S2048x4096 S512x4096 S2048x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S4096x4096.size a
  hwx0_0 : ∀ i : grid0.Coords, EltTy.bits .f32 = 32 ∨ (Rect.block (s := S4096x4096) S512x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x48.size a ≤ S4096x48.size a
  hwx0_1 : ∀ i : grid0.Coords, EltTy.bits .f32 = 32 ∨ (Rect.block (s := S4096x48) S512x48.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S48x4096.size a ≤ S48x4096.size a
  hwx0_2 : ∀ i : grid0.Coords, EltTy.bits .f32 = 32 ∨ (Rect.block (s := S48x4096) S48x4096.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x4096.size a ≤ S4096x4096.size a
  hwx0_3 : ∀ i : grid0.Coords, EltTy.bits .bf16 = 32 ∨ (Rect.block (s := S4096x4096) S512x4096.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x4096.size a ≤ S8192x4096.size a
  hwx1_0 : ∀ i : grid1.Coords, EltTy.bits .bf16 = 32 ∨ (Rect.block (s := S8192x4096) S2048x4096.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S512x4096.size a ≤ S4096x4096.size a
  hwx1_1 : ∀ i : grid1.Coords, EltTy.bits .bf16 = 32 ∨ (Rect.block (s := S4096x4096) S512x4096.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x512.size a ≤ S1x4096.size a
  hwx1_2 : ∀ i : grid1.Coords, EltTy.bits .f32 = 32 ∨ (Rect.block (s := S1x4096) S1x512.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2048x512.size a ≤ S8192x4096.size a
  hwx1_3 : ∀ i : grid1.Coords, EltTy.bits .f32 = 32 ∨ (Rect.block (s := S8192x4096) S2048x512.size (cc1_transform_3 i) (hinb1_3 i)).WholeWords (EltTy.packing .f32)

variable [Facts₀]

def dot_S512x48_S48x4096_S512x4096_1_0_0_1_n_n : DotDims S512x48 S48x4096 S512x4096 where
  lhsContracting := [1]
  rhsContracting := [0]
  lhsNonContracting := [0]
  rhsNonContracting := [1]
  lhsBatch := []
  rhsBatch := []
  wf := dot_S512x48_S48x4096_S512x4096_1_0_0_1_n_n_wf
def dot_S2048x4096_S512x4096_S2048x512_1_1_0_0_n_n : DotDims S2048x4096 S512x4096 S2048x512 where
  lhsContracting := [1]
  rhsContracting := [1]
  lhsNonContracting := [0]
  rhsNonContracting := [0]
  lhsBatch := []
  rhsBatch := []
  wf := dot_S2048x4096_S512x4096_S2048x512_1_1_0_0_n_n_wf

abbrev win0_0 : Pipeline.Window sig grid0 :=
  Pipeline.Window.ofSpec (Memref.whole main_arg1) S512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S512x48.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S48x4096.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S512x4096.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v3) S2048x4096.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v2) S512x4096.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v4) S1x512.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v5) S2048x512.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S8192x4096 : Shape := ⟨2, ![8192, 4096]⟩
abbrev S4096x4096 : Shape := ⟨2, ![4096, 4096]⟩
abbrev S4096x64 : Shape := ⟨2, ![4096, 64]⟩
abbrev S64x4096 : Shape := ⟨2, ![64, 4096]⟩
abbrev S4096 : Shape := ⟨1, ![4096]⟩
abbrev S4096x48 : Shape := ⟨2, ![4096, 48]⟩
abbrev S48x4096 : Shape := ⟨2, ![48, 4096]⟩
abbrev S_ : Shape := ⟨0, ![]⟩
abbrev S4096x1 : Shape := ⟨2, ![4096, 1]⟩
abbrev S1x4096 : Shape := ⟨2, ![1, 4096]⟩

abbrev nBuf : Space → Nat
  | .hbm => 47
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S4096x64, .f32⟩
  | .hbm, ⟨3, _⟩ => ⟨S64x4096, .f32⟩
  | .hbm, ⟨4, _⟩ => ⟨S4096, .f32⟩
  | .hbm, ⟨5, _⟩ => ⟨S4096x48, .f32⟩
  | .hbm, ⟨6, _⟩ => ⟨S48x4096, .f32⟩
  | .hbm, ⟨7, _⟩ => ⟨S4096x4096, .f32⟩
  | .hbm, ⟨8, _⟩ => ⟨S4096x4096, .f32⟩
  | .hbm, ⟨9, _⟩ => ⟨S_, .f32⟩
  | .hbm, ⟨10, _⟩ => ⟨S4096, .f32⟩
  | .hbm, ⟨11, _⟩ => ⟨S4096x1, .f32⟩
  | .hbm, ⟨12, _⟩ => ⟨S_, .f32⟩
  | .hbm, ⟨13, _⟩ => ⟨S4096, .f32⟩
  | .hbm, ⟨14, _⟩ => ⟨S4096x1, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S_, .f32⟩
  | .hbm, ⟨20, _⟩ => ⟨S_, .f32⟩
  | .hbm, ⟨21, _⟩ => ⟨S4096x1, .f32⟩
  | .hbm, ⟨22, _⟩ => ⟨S4096x1, .f32⟩
  | .hbm, ⟨23, _⟩ => ⟨S4096x1, .f32⟩
  | .hbm, ⟨24, _⟩ => ⟨S4096x1, .f32⟩
  | .hbm, ⟨25, _⟩ => ⟨S4096x1, .f32⟩
  | .hbm, ⟨26, _⟩ => ⟨S4096x4096, .f32⟩
  | .hbm, ⟨27, _⟩ => ⟨S4096x4096, .f32⟩
  | .hbm, ⟨28, _⟩ => ⟨S4096x4096, .f32⟩
  | .hbm, ⟨29, _⟩ => ⟨S4096x4096, .f32⟩
  | .hbm, ⟨30, _⟩ => ⟨S4096x4096, .f32⟩
  | .hbm, ⟨31, _⟩ => ⟨S_, .i32⟩
  | .hbm, ⟨32, _⟩ => ⟨S_, .i32⟩
  | .hbm, ⟨33, _⟩ => ⟨S_, .f32⟩
  | .hbm, ⟨34, _⟩ => ⟨S4096x4096, .f32⟩
  | .hbm, ⟨35, _⟩ => ⟨S4096x4096, .f32⟩
  | .hbm, ⟨36, _⟩ => ⟨S_, .f32⟩
  | .hbm, ⟨37, _⟩ => ⟨S4096x4096, .f32⟩
  | .hbm, ⟨38, _⟩ => ⟨S4096x4096, .f32⟩
  | .hbm, ⟨39, _⟩ => ⟨S4096x4096, .f32⟩
  | .hbm, ⟨40, _⟩ => ⟨S4096x4096, .f32⟩
  | .hbm, ⟨41, _⟩ => ⟨S4096x4096, .f32⟩
  | .hbm, ⟨42, _⟩ => ⟨S4096x4096, .f32⟩
  | .hbm, ⟨43, _⟩ => ⟨S8192x4096, .f32⟩
  | .hbm, ⟨44, _⟩ => ⟨S1x4096, .f32⟩
  | .hbm, ⟨45, _⟩ => ⟨S8192x4096, .f32⟩
  | .hbm, ⟨46, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_call0_v0 : Ref sig .tc := ⟨.hbm, 20, rfl⟩
abbrev main_call0_v1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_c : Ref sig .tc := ⟨.hbm, 31, rfl⟩
abbrev main_c_3 : Ref sig .tc := ⟨.hbm, 32, rfl⟩
abbrev main_call3_v0 : Ref sig .tc := ⟨.hbm, 33, rfl⟩
abbrev main_call3_v1 : Ref sig .tc := ⟨.hbm, 34, rfl⟩
abbrev main_call3_v2 : Ref sig .tc := ⟨.hbm, 35, rfl⟩
abbrev main_call3_v3 : Ref sig .tc := ⟨.hbm, 36, rfl⟩
abbrev main_call3_v4 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩

abbrev nD : Nat := 1
abbrev τ : Topo := Topo.v7x

variable {F : FTy → Type} [FloatOps F]

class Facts₀ : Prop where
  slices_S4096x64_S4096x48_0_0 : S4096x64.Slices ![0, 0] S4096x48
  slices_S64x4096_S48x4096_0_0 : S64x4096.Slices ![0, 0] S48x4096
  reducesTo_S4096x4096_S4096_d1 : S4096x4096.ReducesTo [1] S4096
  h_S_ : 0 < S_.numel
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S4096x1_S4096x4096_0_1 : S4096x1.BroadcastsInDim S4096x4096 (![0, 1] : Fin 2 → Fin S4096x4096.rank)
  bcast_S_S4096x4096 : S_.BroadcastsInDim S4096x4096 (![] : Fin 0 → Fin S4096x4096.rank)
  bcast_S4096_S1x4096_1 : S4096.BroadcastsInDim S1x4096 (![1] : Fin 1 → Fin S1x4096.rank)
  bcast_S1x4096_S8192x4096_0_1 : S1x4096.BroadcastsInDim S8192x4096 (![0, 1] : Fin 2 → Fin S8192x4096.rank)
  dot_S4096x48_S48x4096_S4096x4096_1_0_0_1_n_n_wf : DotDims.WF S4096x48 S48x4096 S4096x4096 [1] [0] [0] [1] [] []
  dot_S8192x4096_S4096x4096_S8192x4096_1_1_0_0_n_n_wf : DotDims.WF S8192x4096 S4096x4096 S8192x4096 [1] [1] [0] [0] [] []

variable [Facts₀]

def dot_S4096x48_S48x4096_S4096x4096_1_0_0_1_n_n : DotDims S4096x48 S48x4096 S4096x4096 where
  lhsContracting := [1]
  rhsContracting := [0]
  lhsNonContracting := [0]
  rhsNonContracting := [1]
  lhsBatch := []
  rhsBatch := []
  wf := dot_S4096x48_S48x4096_S4096x4096_1_0_0_1_n_n_wf
def dot_S8192x4096_S4096x4096_S8192x4096_1_1_0_0_n_n : DotDims S8192x4096 S4096x4096 S8192x4096 where
  lhsContracting := [1]
  rhsContracting := [1]
  lhsNonContracting := [0]
  rhsNonContracting := [0]
  lhsBatch := []
  rhsBatch := []
  wf := dot_S8192x4096_S4096x4096_S8192x4096_1_1_0_0_n_n_wf

class Facts : Prop extends Facts₀ where

variable [Facts]
-- ==== Proof.QuantSpec.lean ====
/-
  The layer both programs compute, written once on the extended reals, and the four readings at an index that
  their texts share.

  The layer.  A weight row `w` (4096 entries) is quantised to sixteen levels: with `lo = min w` and `hi = max w`
  the step is `s = max ε ((hi - lo) / 15)` (ε the f32 nearest 1e-8), the zero point is `z = rne (-lo / s)`
  (`rne`: nearest integer, ties to even), and entry `i` becomes `(clamp₀¹⁵ (rne (w i / s) + z) - z) · s`.
  The row that is quantised is the stored weight row plus a rank-48 correction, `W o i + ∑ₖ A o k · B k i`, and the
  layer's output is `∑ᵢ X t i · Q o i + b o` over the quantised rows `Q`.  No law of arithmetic is used to state
  this: the two programs apply these same operations in this same order, so every constant stays the bit pattern
  the programs print and is never evaluated.

  The readings.  A vector `[a]` recast as a column `[a,1]`, and a column broadcast along rows to `[a,b]`, read at
  `(p, c)`, are the entry `p`; a minimum (or maximum) taken along the second axis of an `[a,b]` array, read at
  `p`, is the fold of `min` (`max`) over the row `p` from the accumulator's value — for the vector reduction of a
  kernel body and for a host reduction alike, so that the two sides meet in one expression.
-/
import Idealize.ShloMosaic.PureOps.Ideal.Laws
import Idealize.ShloMosaic.Lib.ValueIdx
import Idealize.ShloMosaic.Lib.Pipeline.Value

noncomputable section

namespace Cert.QuantLinear

open Idealize.ShloMosaic Idealize.ShloMosaic.ValueIdx

/-! ## Column layouts read at an index -/

/-- A vector of `a` entries recast as a column reads, at `(p, u)`, entry `p` (the row-major position of `(p, u)`
    in `[a, 1]` is `p · 1 + u = p`). -/
theorem colCast_apply {α : Type} {a : ℕ} (x : (⟨1, ![a]⟩ : Shape).Idx → α)
    (h : (⟨1, ![a]⟩ : Shape).ShapeCasts ⟨2, ![a, 1]⟩) (p : Fin a) (u : Fin 1) :
    shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A column broadcast along its rows reads, at `(p, c)`, the column's entry `p`. -/
theorem colBroadcast_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## A reduction along a row read at an index -/

/-- In an `[a, b]` array reduced along its second axis, the reduced index `p` with column `k` put back is `(p, k)`. -/
theorem lift_row {a b : ℕ} (h : (⟨2, ![a, b]⟩ : Shape).Reduces [1] (⟨1, ![a]⟩ : Shape)) (p : Fin a)
    (k : Fin ((⟨2, ![a, b]⟩ : Shape).size 1)) : h.lift (ix1 p) k = ix2 p (⟨k.val, k.isLt⟩ : Fin b) := by
  funext c; apply Fin.ext
  fin_cases c <;> rfl

/-- A kernel body's minimum along the rows of an `[a, b]` vector: at `p`, the fold of `min` over row `p` from the
    accumulator's value (the minimum's counterpart of the library's law for the maximum). -/
theorem rowMinimum_apply {a b : ℕ} (src : FVec Ideal ⟨2, ![a, b]⟩ .f32) (acc : BitVec 32)
    (h : (⟨2, ![a, b]⟩ : Shape).Reduces [1] ⟨1, ![a]⟩) (hφ : FKind.Formats .f32)
    (hacc : acc = FKind.minimumf.neutral .f32 hφ) (p : Fin a) :
    multiReduction .minimumf [1] ⟨1, ![a]⟩ src acc h hφ hacc (ix1 p)
      = (Finset.univ : Finset (Fin b)).fold min (Ideal.ofBits .f32 acc) (fun k => src (ix2 p k)) := by
  rw [multiReduction_minimumf_eq_fold]
  refine (h.fold_filter_drop_single _ _ src (ix1 p)).trans ?_
  exact congrArg (fun f => Finset.fold min (Ideal.ofBits .f32 acc) f (Finset.univ : Finset (Fin b)))
    (funext fun k => congrArg src (lift_row h p k))

/-- The same for its maximum. -/
theorem rowMaximum_apply {a b : ℕ} (src : FVec Ideal ⟨2, ![a, b]⟩ .f32) (acc : BitVec 32)
    (h : (⟨2, ![a, b]⟩ : Shape).Reduces [1] ⟨1, ![a]⟩) (hφ : FKind.Formats .f32)
    (hacc : acc = FKind.maximumf.neutral .f32 hφ) (p : Fin a) :
    multiReduction .maximumf [1] ⟨1, ![a]⟩ src acc h hφ hacc (ix1 p)
      = (Finset.univ : Finset (Fin b)).fold max (Ideal.ofBits .f32 acc) (fun k => src (ix2 p k)) := by
  refine (Ideal.multiReduction_maximumf_single src acc h hφ hacc (ix1 p)).trans ?_
  exact congrArg (fun f => Finset.fold max (Ideal.ofBits .f32 acc) f (Finset.univ : Finset (Fin b)))
    (funext fun k => congrArg src (lift_row h p k))

/-- A host reduction along the rows of an `[a, b]` array with a commutative and associative body: at `p`, the fold
    of the body over row `p` from the initial value. -/
theorem hostRowFold_apply {a b : ℕ} (f : EReal → EReal → EReal) [Std.Commutative f] [Std.Associative f]
    (x : (⟨2, ![a, b]⟩ : Shape).Idx → EReal) (init : (⟨0, ![]⟩ : Shape).Idx → EReal)
    (h' : (⟨2, ![a, b]⟩ : Shape).ReducesTo [1] ⟨1, ![a]⟩) (h : (⟨2, ![a, b]⟩ : Shape).Reduces [1] ⟨1, ![a]⟩)
    (hu : 0 < (⟨0, ![]⟩ : Shape).numel) (p : Fin a) :
    Host.reduce f x init h' hu (ix1 p)
      = (Finset.univ : Finset (Fin b)).fold f (init ix0) (fun k => x (ix2 p k)) := by
  rw [Host.reduce_eq_fold_single f x init h' h hu, eq_ix0 (Shape.Idx.first hu)]
  exact congrArg (fun g => Finset.fold f (init ix0) g (Finset.univ : Finset (Fin b)))
    (funext fun k => congrArg x (lift_row h p k))

/-! ## The layer on the extended reals -/

/-- To the nearest integer, ties to even; the infinities fixed. -/
def rne (x : EReal) : EReal := Ideal.liftRound Ideal.roundHalfEven x

section Row
variable {n : ℕ}

/-- A row's least entry: the fold of `min` from the f32 pattern of +∞. -/
def rowMin (w : Fin n → EReal) : EReal :=
  (Finset.univ : Finset (Fin n)).fold min (Ideal.ofBits .f32 0x7F800000#32) w

/-- A row's greatest entry: the fold of `max` from the f32 pattern of -∞. -/
def rowMax (w : Fin n → EReal) : EReal :=
  (Finset.univ : Finset (Fin n)).fold max (Ideal.ofBits .f32 0xFF800000#32) w

/-- The quantisation step of a row: its range over fifteen, and at least the f32 nearest 1e-8. -/
def step (w : Fin n → EReal) : EReal :=
  max (Ideal.ofBits .f32 0x322BCC77#32) (Ideal.div (rowMax w - rowMin w) (Ideal.ofBits .f32 0x41700000#32))

/-- The zero point of a row: minus its least entry, in steps, rounded. -/
def zeroPoint (w : Fin n → EReal) : EReal := rne (Ideal.div (-(rowMin w)) (step w))

/-- Entry `i` of the row, quantised: rounded in steps and shifted by the zero point, clamped to the sixteen levels
    `0 … 15`, shifted back and rescaled. -/
def quant (w : Fin n → EReal) (i : Fin n) : EReal :=
  (min (((15#32 : BitVec 32).toInt : ℝ) : EReal)
      (max (((0#32 : BitVec 32).toInt : ℝ) : EReal) (rne (Ideal.div (w i) (step w)) + zeroPoint w))
    - zeroPoint w) * step w

end Row

/-- Row `o` of the weight that is quantised: the stored row plus the rank-48 correction. -/
def mergedRow {r : ℕ} (W : (⟨2, ![r, 4096]⟩ : Shape).Idx → EReal) (A : (⟨2, ![r, 48]⟩ : Shape).Idx → EReal)
    (B : (⟨2, ![48, 4096]⟩ : Shape).Idx → EReal) (o : Fin r) : Fin 4096 → EReal :=
  fun i => W (ix2 o i) + ∑ k : Fin 48, A (ix2 o k) * B (ix2 k i)

/-- The quantised weight, entry `(o, i)`. -/
def quantWeight (W : (⟨2, ![4096, 4096]⟩ : Shape).Idx → EReal) (A : (⟨2, ![4096, 48]⟩ : Shape).Idx → EReal)
    (B : (⟨2, ![48, 4096]⟩ : Shape).Idx → EReal) : (⟨2, ![4096, 4096]⟩ : Shape).Idx → EReal :=
  fun j => quant (mergedRow W A B (j 0)) (j 1)

/-- The layer's output, entry `(t, o)`: row `t` of the input against row `o` of the weight, plus the bias. -/
def linear (X : (⟨2, ![8192, 4096]⟩ : Shape).Idx → EReal) (Q : (⟨2, ![4096, 4096]⟩ : Shape).Idx → EReal)
    (b : (⟨1, ![4096]⟩ : Shape).Idx → EReal) : (⟨2, ![8192, 4096]⟩ : Shape).Idx → EReal :=
  fun j => (∑ k : Fin 4096, X (ix2 (j 0) k) * Q (ix2 (j 1) k)) + b (ix1 (j 1))

theorem quantWeight_ix2 (W : (⟨2, ![4096, 4096]⟩ : Shape).Idx → EReal) (A : (⟨2, ![4096, 48]⟩ : Shape).Idx → EReal)
    (B : (⟨2, ![48, 4096]⟩ : Shape).Idx → EReal) (o i : Fin 4096) :
    quantWeight W A B (ix2 o i) = quant (mergedRow W A B o) i := rfl

theorem linear_ix2 (X : (⟨2, ![8192, 4096]⟩ : Shape).Idx → EReal) (Q : (⟨2, ![4096, 4096]⟩ : Shape).Idx → EReal)
    (b : (⟨1, ![4096]⟩ : Shape).Idx → EReal) (t : Fin 8192) (o : Fin 4096) :
    linear X Q b (ix2 t o) = (∑ k : Fin 4096, X (ix2 t k) * Q (ix2 o k)) + b (ix1 o) := rfl

end Cert.QuantLinear

end
-- ==== Proof.LayerSpec.lean ====
/-
  The whole layer as one function of the five argument arrays: the rank-48 factors are the leading 48 columns of
  the 4096×64 array and the leading 48 rows of the 64×4096 one; the weight merged with their product is quantised
  row by row; the output is the input against the quantised rows plus the bias.  Both programs' results are stated
  as this one term.
-/
import proofs.«145042_j27273042330100_2_alg».proof.Proof.QuantSpec

noncomputable section

namespace Cert.QuantLinear

open Idealize.ShloMosaic Idealize.ShloMosaic.ValueIdx

/-- The leading 48 columns of the left factor. -/
def leftFactor (Bd : (⟨2, ![4096, 64]⟩ : Shape).Idx → EReal) : (⟨2, ![4096, 48]⟩ : Shape).Idx → EReal :=
  extractStridedSlice ⟨2, ![4096, 48]⟩ ![0, 0] Bd (by decide)

/-- The leading 48 rows of the right factor. -/
def rightFactor (Bu : (⟨2, ![64, 4096]⟩ : Shape).Idx → EReal) : (⟨2, ![48, 4096]⟩ : Shape).Idx → EReal :=
  extractStridedSlice ⟨2, ![48, 4096]⟩ ![0, 0] Bu (by decide)

/-- The layer. -/
def layer (X : (⟨2, ![8192, 4096]⟩ : Shape).Idx → EReal) (W : (⟨2, ![4096, 4096]⟩ : Shape).Idx → EReal)
    (Bd : (⟨2, ![4096, 64]⟩ : Shape).Idx → EReal) (Bu : (⟨2, ![64, 4096]⟩ : Shape).Idx → EReal)
    (b : (⟨1, ![4096]⟩ : Shape).Idx → EReal) : (⟨2, ![8192, 4096]⟩ : Shape).Idx → EReal :=
  linear X (quantWeight W (leftFactor Bd) (rightFactor Bu)) b

end Cert.QuantLinear

end
-- ==== Proof.KernelBodies.lean ====
/-
  What each kernel body stores, read at one entry of its block.

  The quantising body, on a block of 512 weight rows, stores at `(p, q)` the quantised entry `q` of the block's row
  `p` merged with its rank-48 correction: the product of the 512×48 and 48×4096 blocks is, at `(p, i)`, the sum over
  `k` of their entries `(p, k)` and `(k, i)`; the minimum and maximum along the rows are folds over row `p`; every
  column they produce is broadcast back along the row; and the body's `0 - lo` is `-lo` on the extended reals.  The
  change of format before the store is the identity.

  The product body, on 2048 input rows and 512 weight rows, stores at `(p, q)` the sum over `k` of the entries
  `(p, k)` and `(q, k)` of its two blocks (both contracted along their second axis) plus the bias row's entry `q`.
-/
import proofs.«145042_j27273042330100_2_alg».proof.Proof.Gen.KernelIdeal.Skeleton
import proofs.«145042_j27273042330100_2_alg».proof.Proof.QuantSpec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Bodies

open Cert.KernelIdeal Cert.KernelIdeal.Gen Cert.QuantLinear
open Idealize.ShloMosaic Idealize.ShloMosaic.ValueIdx

/-! ## The two products -/

/-- In the correction's product the left operand is read at (row of the output, contraction index) … -/
theorem corrL (i : S512x4096.Idx) (k : Fin 48) :
    dot_S512x48_S48x4096_S512x4096_1_0_0_1_n_n.lhsIdx i ((contrEquiv1 dot_S512x48_S48x4096_S512x4096_1_0_0_1_n_n 48 rfl rfl).symm k) = ix2 (i 0) k := by
  have hk := contrEquiv1_symm_val dot_S512x48_S48x4096_S512x4096_1_0_0_1_n_n 48 rfl rfl k
  funext a; apply Fin.ext
  match a with
  | ⟨0, _⟩ =>
    show (dot_S512x48_S48x4096_S512x4096_1_0_0_1_n_n.lhsIdx i _ 0).val = (i 0).val
    unfold DotDims.lhsIdx
    rw [dif_neg (show ¬(0 : Fin S512x48.rank) ∈ dot_S512x48_S48x4096_S512x4096_1_0_0_1_n_n.lhsBatch by decide), dif_pos (show (0 : Fin S512x48.rank) ∈ dot_S512x48_S48x4096_S512x4096_1_0_0_1_n_n.lhsNonContracting by decide)]
    rfl
  | ⟨1, _⟩ => exact (dot_S512x48_S48x4096_S512x4096_1_0_0_1_n_n.lhsIdx_val_of_single rfl i _).trans hk

/-- … and the right operand at (contraction index, column of the output). -/
theorem corrR (i : S512x4096.Idx) (k : Fin 48) :
    dot_S512x48_S48x4096_S512x4096_1_0_0_1_n_n.rhsIdx i ((contrEquiv1 dot_S512x48_S48x4096_S512x4096_1_0_0_1_n_n 48 rfl rfl).symm k) = ix2 k (i 1) := by
  have hk := contrEquiv1_symm_val dot_S512x48_S48x4096_S512x4096_1_0_0_1_n_n 48 rfl rfl k
  funext a; apply Fin.ext
  match a with
  | ⟨0, _⟩ => exact (dot_S512x48_S48x4096_S512x4096_1_0_0_1_n_n.rhsIdx_val_of_single rfl i _).trans hk
  | ⟨1, _⟩ =>
    show (dot_S512x48_S48x4096_S512x4096_1_0_0_1_n_n.rhsIdx i _ 1).val = (i 1).val
    unfold DotDims.rhsIdx
    rw [dif_neg (show ¬(1 : Fin S48x4096.rank) ∈ dot_S512x48_S48x4096_S512x4096_1_0_0_1_n_n.rhsBatch by decide), dif_pos (show (1 : Fin S48x4096.rank) ∈ dot_S512x48_S48x4096_S512x4096_1_0_0_1_n_n.rhsNonContracting by decide)]
    rfl

/-- The correction's product into the zero accumulator, at `(p, i)`: the sum over `k` of `x (p, k) · y (k, i)`. -/
theorem corr_apply (x : FVec Ideal S512x48 .f32) (y : FVec Ideal S48x4096 .f32) (p : Fin 512) (i : Fin 4096) :
    matmul dot_S512x48_S48x4096_S512x4096_1_0_0_1_n_n none x y (constant S512x4096 .f32 0x00000000#32) (ix2 p i)
      = ∑ k : Fin 48, x (ix2 p k) * y (ix2 k i) := by
  simp only [matmul]
  rw [Ideal.matmul_constant_zero_apply, ← Equiv.sum_comp (contrEquiv1 dot_S512x48_S48x4096_S512x4096_1_0_0_1_n_n 48 rfl rfl).symm]
  refine Finset.sum_congr rfl fun k _ => ?_
  rw [corrL, corrR]; rfl

/-- In the layer's product the left operand is read at (row of the output, contraction index) … -/
theorem prodL (i : S2048x512.Idx) (k : Fin 4096) :
    dot_S2048x4096_S512x4096_S2048x512_1_1_0_0_n_n.lhsIdx i ((contrEquiv1 dot_S2048x4096_S512x4096_S2048x512_1_1_0_0_n_n 4096 rfl rfl).symm k) = ix2 (i 0) k := by
  have hk := contrEquiv1_symm_val dot_S2048x4096_S512x4096_S2048x512_1_1_0_0_n_n 4096 rfl rfl k
  funext a; apply Fin.ext
  match a with
  | ⟨0, _⟩ =>
    show (dot_S2048x4096_S512x4096_S2048x512_1_1_0_0_n_n.lhsIdx i _ 0).val = (i 0).val
    unfold DotDims.lhsIdx
    rw [dif_neg (show ¬(0 : Fin S2048x4096.rank) ∈ dot_S2048x4096_S512x4096_S2048x512_1_1_0_0_n_n.lhsBatch by decide), dif_pos (show (0 : Fin S2048x4096.rank) ∈ dot_S2048x4096_S512x4096_S2048x512_1_1_0_0_n_n.lhsNonContracting by decide)]
    rfl
  | ⟨1, _⟩ => exact (dot_S2048x4096_S512x4096_S2048x512_1_1_0_0_n_n.lhsIdx_val_of_single rfl i _).trans hk

/-- … and the right operand at (column of the output, contraction index): both are contracted along their rows. -/
theorem prodR (i : S2048x512.Idx) (k : Fin 4096) :
    dot_S2048x4096_S512x4096_S2048x512_1_1_0_0_n_n.rhsIdx i ((contrEquiv1 dot_S2048x4096_S512x4096_S2048x512_1_1_0_0_n_n 4096 rfl rfl).symm k) = ix2 (i 1) k := by
  have hk := contrEquiv1_symm_val dot_S2048x4096_S512x4096_S2048x512_1_1_0_0_n_n 4096 rfl rfl k
  funext a; apply Fin.ext
  match a with
  | ⟨0, _⟩ =>
    show (dot_S2048x4096_S512x4096_S2048x512_1_1_0_0_n_n.rhsIdx i _ 0).val = (i 1).val
    unfold DotDims.rhsIdx
    rw [dif_neg (show ¬(0 : Fin S512x4096.rank) ∈ dot_S2048x4096_S512x4096_S2048x512_1_1_0_0_n_n.rhsBatch by decide), dif_pos (show (0 : Fin S512x4096.rank) ∈ dot_S2048x4096_S512x4096_S2048x512_1_1_0_0_n_n.rhsNonContracting by decide)]
    rfl
  | ⟨1, _⟩ => exact (dot_S2048x4096_S512x4096_S2048x512_1_1_0_0_n_n.rhsIdx_val_of_single rfl i _).trans hk

/-- The layer's product into the zero accumulator, at `(p, q)`: the sum over `k` of `x (p, k) · y (q, k)`. -/
theorem prod_apply (x : FVec Ideal S2048x4096 .bf16) (y : FVec Ideal S512x4096 .bf16) (p : Fin 2048) (q : Fin 512) :
    matmul dot_S2048x4096_S512x4096_S2048x512_1_1_0_0_n_n none x y (constant S2048x512 .f32 0x00000000#32) (ix2 p q)
      = ∑ k : Fin 4096, x (ix2 p k) * y (ix2 q k) := by
  simp only [matmul]
  rw [Ideal.matmul_constant_zero_apply, ← Equiv.sum_comp (contrEquiv1 dot_S2048x4096_S512x4096_S2048x512_1_1_0_0_n_n 4096 rfl rfl).symm]
  refine Finset.sum_congr rfl fun k _ => ?_
  rw [prodL, prodR]; rfl

/-! ## The quantising body -/

/-- The body's minimum along the rows of a 512×4096 block, at row `p`. -/
theorem blockMin_apply (w : FVec Ideal S512x4096 .f32) (p : Fin 512) :
    multiReduction .minimumf [1] S512 w 0x7F800000#32 reduces_S512x4096_S512 (.inl rfl) rfl (ix1 p)
      = rowMin fun k : Fin 4096 => w (ix2 p k) :=
  rowMinimum_apply w _ reduces_S512x4096_S512 (.inl rfl) rfl p

/-- Its maximum. -/
theorem blockMax_apply (w : FVec Ideal S512x4096 .f32) (p : Fin 512) :
    multiReduction .maximumf [1] S512 w 0xFF800000#32 reduces_S512x4096_S512 (.inl rfl) rfl (ix1 p)
      = rowMax fun k : Fin 4096 => w (ix2 p k) :=
  rowMaximum_apply w _ reduces_S512x4096_S512 (.inl rfl) rfl p

/-- A 512-vector recast as a column, at `(p, 0)`. -/
theorem col512_apply (x : FVec Ideal S512 .f32) (p : Fin 512) :
    shapeCast S512x1 x shapeCasts_S512_S512x1 (ix2 p (0 : Fin 1)) = x (ix1 p) :=
  colCast_apply x shapeCasts_S512_S512x1 p 0

/-- A 512-column broadcast along the rows, at `(p, q)`. -/
theorem row512_apply (x : FVec Ideal S512x1 .f32) (p : Fin 512) (q : Fin 4096) :
    broadcastTo S512x4096 x broadcasts_S512x1_S512x4096 (ix2 p q) = x (ix2 p (0 : Fin 1)) :=
  colBroadcast_apply x broadcasts_S512x1_S512x4096 p q

theorem roundeven_apply {s : Shape} (x : FVec Ideal s .f32) (i : s.Idx) : roundeven x i = rne (x i) := rfl

theorem scalarBits (b : BitVec 32) : (Scalar.ofBits (F := Ideal) .f32 b : EReal) = Ideal.ofBits .f32 b := rfl

/-! The body's operations after the merged block `w`, column by column (each a 512×1 column, one entry per row). -/

/-- The column of the rows' least entries. -/
def loCol (w : FVec Ideal S512x4096 .f32) : FVec Ideal S512x1 .f32 :=
  shapeCast S512x1 (multiReduction .minimumf [1] S512 w 0x7F800000#32 reduces_S512x4096_S512 (.inl rfl) rfl) shapeCasts_S512_S512x1

/-- The column of the rows' greatest entries. -/
def hiCol (w : FVec Ideal S512x4096 .f32) : FVec Ideal S512x1 .f32 :=
  shapeCast S512x1 (multiReduction .maximumf [1] S512 w 0xFF800000#32 reduces_S512x4096_S512 (.inl rfl) rfl) shapeCasts_S512_S512x1

/-- The column of the rows' quantisation steps. -/
def stepCol (w : FVec Ideal S512x4096 .f32) : FVec Ideal S512x1 .f32 :=
  maximumf (broadcast S512x1 (Scalar.ofBits .f32 0x322BCC77#32))
    (divf (subf (hiCol w) (loCol w)) (broadcast S512x1 (Scalar.ofBits .f32 0x41700000#32)))

/-- The column of the rows' zero points, as the body writes them: from `0 - lo`. -/
def zeroCol (w : FVec Ideal S512x4096 .f32) : FVec Ideal S512x1 .f32 :=
  roundeven (divf (subf (broadcast S512x1 (Scalar.ofBits .f32 0x00000000#32)) (loCol w)) (stepCol w))

/-- The stored block: every entry rounded in steps, shifted, clamped, shifted back and rescaled by its row's
    columns, then changed to the stored format. -/
def quantBlock (w : FVec Ideal S512x4096 .f32) : FVec Ideal S512x4096 .bf16 :=
  truncf .bf16 (mulf (subf (minimumf (broadcast S512x4096 (Scalar.sitofp .f32 15#32))
      (maximumf (broadcast S512x4096 (Scalar.sitofp .f32 0#32))
        (addf (roundeven (divf w (broadcastTo S512x4096 (stepCol w) broadcasts_S512x1_S512x4096)))
          (broadcastTo S512x4096 (zeroCol w) broadcasts_S512x1_S512x4096))))
      (broadcastTo S512x4096 (zeroCol w) broadcasts_S512x1_S512x4096))
    (broadcastTo S512x4096 (stepCol w) broadcasts_S512x1_S512x4096)) bitsLt_bf16_f32

/-- The body's payload is these operations of the merged block. -/
theorem body_eq (bd : FVec Ideal S512x48 .f32) (bu : FVec Ideal S48x4096 .f32) (wt : FVec Ideal S512x4096 .f32) :
    k0_pay1 (F := Ideal) bd bu wt
      = quantBlock (addf wt (matmul dot_S512x48_S48x4096_S512x4096_1_0_0_1_n_n none (shapeCast S512x48 bd shapeCasts_S512x48_S512x48)
          (shapeCast S48x4096 bu shapeCasts_S48x4096_S48x4096) (constant S512x4096 .f32 0x00000000#32))) := rfl

theorem loCol_apply (w : FVec Ideal S512x4096 .f32) (p : Fin 512) :
    loCol w (ix2 p (0 : Fin 1)) = rowMin fun k : Fin 4096 => w (ix2 p k) := by
  unfold loCol
  rw [col512_apply, blockMin_apply]

theorem hiCol_apply (w : FVec Ideal S512x4096 .f32) (p : Fin 512) :
    hiCol w (ix2 p (0 : Fin 1)) = rowMax fun k : Fin 4096 => w (ix2 p k) := by
  unfold hiCol
  rw [col512_apply, blockMax_apply]

theorem stepCol_apply (w : FVec Ideal S512x4096 .f32) (p : Fin 512) :
    stepCol w (ix2 p (0 : Fin 1)) = step fun k : Fin 4096 => w (ix2 p k) := by
  unfold stepCol step
  rw [maximumf_apply, divf_apply, subf_apply, broadcast_apply, broadcast_apply, hiCol_apply, loCol_apply, scalarBits, scalarBits]

/-- On the extended reals `0 - x` is `-x` (at the infinities too), so the body's zero point is the layer's. -/
theorem zeroCol_apply (w : FVec Ideal S512x4096 .f32) (p : Fin 512) :
    zeroCol w (ix2 p (0 : Fin 1)) = zeroPoint fun k : Fin 4096 => w (ix2 p k) := by
  unfold zeroCol zeroPoint
  rw [roundeven_apply, divf_apply, subf_apply, broadcast_apply, loCol_apply, stepCol_apply, scalarBits,
    Ideal.ofBits_zero_f32, zero_sub]

theorem scalarInt (b : BitVec 32) : (Scalar.sitofp (F := Ideal) .f32 b : EReal) = ((b.toInt : ℝ) : EReal) := rfl

/-- The stored block at `(p, q)`: entry `q` of row `p` of `w`, quantised. -/
theorem quantBlock_apply (w : FVec Ideal S512x4096 .f32) (p : Fin 512) (q : Fin 4096) :
    quantBlock w (ix2 p q) = quant (fun k : Fin 4096 => w (ix2 p k)) q := by
  unfold quantBlock quant
  rw [truncf_apply, mulf_apply, subf_apply, minimumf_apply, maximumf_apply, addf_apply, roundeven_apply, divf_apply,
    broadcast_apply, broadcast_apply, row512_apply, row512_apply, stepCol_apply, zeroCol_apply, scalarInt, scalarInt]

/-- WHAT THE QUANTISING BODY STORES at `(p, q)`: entry `q` of the block's merged row `p`, quantised. -/
theorem quantBody_apply (bd : FVec Ideal S512x48 .f32) (bu : FVec Ideal S48x4096 .f32) (wt : FVec Ideal S512x4096 .f32)
    (p : Fin 512) (q : Fin 4096) :
    k0_pay1 (F := Ideal) bd bu wt (ix2 p q) = quant (mergedRow wt bd bu p) q := by
  rw [body_eq, quantBlock_apply]
  refine congrArg (fun r => quant r q) (funext fun i => ?_)
  rw [addf_apply, corr_apply, shapeCast_self, shapeCast_self]; rfl

/-! ## The product body -/

/-- WHAT THE PRODUCT BODY STORES at `(p, q)`: input row `p` against weight row `q`, plus the bias row's entry `q`. -/
theorem prodBody_apply (xb : FVec Ideal S2048x4096 .bf16) (wq : FVec Ideal S512x4096 .bf16) (bs : FVec Ideal S1x512 .f32)
    (p : Fin 2048) (q : Fin 512) :
    k1_pay1 (F := Ideal) xb wq bs (ix2 p q) = (∑ k : Fin 4096, xb (ix2 p k) * wq (ix2 q k)) + bs (ix2 (0 : Fin 1) q) := by
  show matmul dot_S2048x4096_S512x4096_S2048x512_1_1_0_0_n_n none (shapeCast S2048x4096 xb shapeCasts_S2048x4096_S2048x4096)
      (shapeCast S512x4096 wq shapeCasts_S512x4096_S512x4096) (constant S2048x512 .f32 0x00000000#32) (ix2 p q)
    + broadcastTo S2048x512 (shapeCast S1x512 bs shapeCasts_S1x512_S1x512) broadcasts_S1x512_S2048x512 (ix2 p q) = _
  rw [prod_apply, shapeCast_self, shapeCast_self, shapeCast_self, broadcastTo_1b_ab_apply]

end Cert.KernelIdeal.Bodies

end
-- ==== Proof.KernelRegions.lean ====
/-
  From blocks to arrays, region by region, at the contents `V` a region is entered with.

  The quantising region walks the 4096 weight rows in eight blocks of 512; at block `t` every window but the
  48×4096 factor (fetched whole) sits at block row `t`, so local row `p` is row `512 t + p` of its array and what the
  body stores there is the quantised merged row `512 t + p` of the region's arrays.  The eight blocks tile the output.

  The product region walks a 4×8 grid; at point `t` the input window is at block row `t / 8` (2048 rows), the weight
  and bias windows at block `t % 8` (512 rows, 512 bias entries), and the output block at `(t / 8, t % 8)`, so entry
  `(p, q)` of the block is entry `(2048 (t/8) + p, 512 (t%8) + q)` of the output and holds that input row against that
  weight row plus that bias entry.  The thirty-two blocks tile the output.
-/
import proofs.«145042_j27273042330100_2_alg».proof.Proof.Gen.KernelIdeal.Frame
import proofs.«145042_j27273042330100_2_alg».proof.Proof.KernelBodies
import proofs.«145042_j27273042330100_2_alg».proof.Proof.QuantSpec
import Idealize.ShloMosaic.Lib.Pipeline.Value
import Idealize.ShloMosaic.Lib.ValueIdx

set_option maxRecDepth 16384

noncomputable section

namespace Cert.KernelIdeal.Regions

open Cert.KernelIdeal Cert.KernelIdeal.Gen Cert.KernelIdeal.Bodies Cert.QuantLinear
open Idealize.ShloMosaic Idealize.ShloMosaic.TcCoe Idealize.SL.Sem Idealize.ShloMosaic.ValueIdx
open Idealize.ShloMosaic.Pipeline (Dat Cfg Window)

variable (V : (c : Dev nD) → (b : Ref sig .tc) → Buf (Elt Ideal) ((c : Thread nD τ).loc b))

theorem zeros : (![0, 0] : Fin 2 → Nat) = fun _ => 0 := funext fun a => by fin_cases a <;> rfl

/-! ## The quantising region -/

/-- The block each window sits at, over the eight points. -/
theorem blockAt0 : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

theorem lt8 (t : Fin cfg0.N) : t.val < 8 := lt_of_lt_of_eq t.isLt (show cfg0.N = 8 from N_0)

/-- Row `p` of block `t`, as a row of the weight. -/
def wrow (t : Fin cfg0.N) (p : Fin 512) : Fin 4096 :=
  ⟨t.val * 512 + p.val, by have := lt8 t; have := p.isLt; omega⟩

/-- The weight block at `(p, i)` is the weight at `(512 t + p, i)`. -/
theorem weightBlock (c : Dev nD) (t : Fin cfg0.N) (p : Fin 512) (i : Fin 4096) :
    iblk0 V c 0 t (ix2 p i) = V c main_arg1 (ix2 (wrow t p) i) := by
  obtain ⟨e0, e1, -⟩ := blockAt0 t
  have h : ((cfg0.win 0).blk t).view.emb (ix2 p i) = ix2 (wrow t p) i := by
    funext a; apply Fin.ext
    match a with
    | ⟨0, _⟩ => show win0_0.index t (0 : Fin 2) * 512 + 1 * p.val = t.val * 512 + p.val; omega
    | ⟨1, _⟩ => show win0_0.index t (1 : Fin 2) * 4096 + 1 * i.val = i.val; omega
  show V c main_arg1 (((cfg0.win 0).blk t).view.emb (ix2 p i)) = _
  rw [h]

/-- The left factor's block at `(p, k)` is the factor at `(512 t + p, k)`. -/
theorem leftBlock (c : Dev nD) (t : Fin cfg0.N) (p : Fin 512) (k : Fin 48) :
    iblk0 V c 1 t (ix2 p k) = V c main_v0 (ix2 (wrow t p) k) := by
  obtain ⟨-, -, e2, e3, -⟩ := blockAt0 t
  have h : ((cfg0.win 1).blk t).view.emb (ix2 p k) = ix2 (wrow t p) k := by
    funext a; apply Fin.ext
    match a with
    | ⟨0, _⟩ => show win0_1.index t (0 : Fin 2) * 512 + 1 * p.val = t.val * 512 + p.val; omega
    | ⟨1, _⟩ => show win0_1.index t (1 : Fin 2) * 48 + 1 * k.val = k.val; omega
  show V c main_v0 (((cfg0.win 1).blk t).view.emb (ix2 p k)) = _
  rw [h]

/-- The right factor is fetched whole. -/
theorem rightBlock (c : Dev nD) (t : Fin cfg0.N) (k : Fin 48) (i : Fin 4096) :
    iblk0 V c 2 t (ix2 k i) = V c main_v1 (ix2 k i) := by
  obtain ⟨-, -, -, -, e4, e5, -⟩ := blockAt0 t
  have h : ((cfg0.win 2).blk t).view.emb (ix2 k i) = ix2 k i := by
    funext a; apply Fin.ext
    match a with
    | ⟨0, _⟩ => show win0_2.index t (0 : Fin 2) * 48 + 1 * k.val = k.val; omega
    | ⟨1, _⟩ => show win0_2.index t (1 : Fin 2) * 4096 + 1 * i.val = i.val; omega
  show V c main_v1 (((cfg0.win 2).blk t).view.emb (ix2 k i)) = _
  rw [h]

/-- The output block's entry `(p, q)` is the output's entry `(512 t + p, q)`. -/
theorem quantOut (t : Fin cfg0.N) (p : Fin 512) (q : Fin 4096) :
    ((cfg0.win 3).blk t).view.emb (ix2 p q) = ix2 (wrow t p) q := by
  obtain ⟨-, -, -, -, -, -, e6, e7⟩ := blockAt0 t
  funext a; apply Fin.ext
  match a with
  | ⟨0, _⟩ => show win0_3.index t (0 : Fin 2) * 512 + 1 * p.val = t.val * 512 + p.val; omega
  | ⟨1, _⟩ => show win0_3.index t (1 : Fin 2) * 4096 + 1 * q.val = q.val; omega

/-- WHAT POINT `t` WRITES BACK is block `t` of the quantised merged weight of the region's arrays. -/
theorem quantFlushed (c : Dev nD) (t : Fin cfg0.N) :
    (dat0 V c).flushed 3 t
      = ((cfg0.win 3).blk t).view.read (Elt Ideal) (quantWeight (V c main_arg1) (V c main_v0) (V c main_v1)) := by
  show (cfg0.win 3).cut (grid0.coords t) ((dat0 V c).after 3 t) = _
  rw [after0_3]
  unfold out0_3
  rw [View.canon_unit_zero zeros]
  simp only [View.ld_unit_zero (S := S512x48) zeros, View.ld_unit_zero (S := S48x4096) zeros, View.ld_unit_zero (S := S512x4096) zeros]
  funext y
  obtain ⟨p, q, rfl⟩ : ∃ (p : Fin 512) (q : Fin 4096), y = ix2 p q := ⟨y 0, y 1, eq_ix2 y⟩
  show k0_pay1 (F := Ideal) (iblk0 V c 1 t) (iblk0 V c 2 t) (iblk0 V c 0 t) (ix2 p q)
    = quantWeight (V c main_arg1) (V c main_v0) (V c main_v1) (((cfg0.win 3).blk t).view.emb (ix2 p q))
  rw [quantOut, quantWeight_ix2]
  refine (quantBody_apply (iblk0 V c 1 t) (iblk0 V c 2 t) (iblk0 V c 0 t) p q).trans ?_
  refine congrArg (fun r => quant r q) (funext fun i => ?_)
  unfold mergedRow
  rw [weightBlock]
  refine congrArg _ (Finset.sum_congr rfl fun k _ => ?_)
  rw [leftBlock, rightBlock]

/-- An entry of the output is in point `t`'s block iff each coordinate is in the block's range. -/
theorem quantMem (t : Fin cfg0.N) (i : S4096x4096.Idx) :
    i ∈ ((cfg0.win 3).blk t).view.set ↔ ∀ a : Fin 2, win0_3.index t a * S512x4096.size a ≤ (i a).val
      ∧ (i a).val < win0_3.index t a * S512x4096.size a + S512x4096.size a := by
  show i ∈ ((View.whole main_v2).slice (win0_3.rect t)).set ↔ _
  rw [View.set_slice_whole, Rect.mem_set_unit]
  exact Iff.rfl

/-- Every row of the output is in the block of the point `row / 512`. -/
theorem quantCover (i : S4096x4096.Idx) :
    ∃ t : Fin cfg0.N, (cfg0.win 3).flush t = true ∧ i ∈ ((cfg0.win 3).blk t).view.set := by
  have hi0 : (i 0).val < 4096 := (i 0).isLt
  have hi1 : (i 1).val < 4096 := (i 1).isLt
  have ht : (i 0).val / 512 < cfg0.N := by rw [show cfg0.N = 8 from N_0]; omega
  obtain ⟨-, -, -, -, -, -, e6, e7⟩ := blockAt0 ⟨(i 0).val / 512, ht⟩
  refine ⟨⟨(i 0).val / 512, ht⟩, flush0_3 _, ?_⟩
  rw [quantMem]
  intro a
  match a with
  | ⟨0, _⟩ =>
    show win0_3.index ⟨(i 0).val / 512, ht⟩ (0 : Fin 2) * 512 ≤ (i 0).val
      ∧ (i 0).val < win0_3.index ⟨(i 0).val / 512, ht⟩ (0 : Fin 2) * 512 + 512
    have e : win0_3.index ⟨(i 0).val / 512, ht⟩ (0 : Fin 2) = (i 0).val / 512 := e6
    omega
  | ⟨1, _⟩ =>
    show win0_3.index ⟨(i 0).val / 512, ht⟩ (1 : Fin 2) * 4096 ≤ (i 1).val
      ∧ (i 1).val < win0_3.index ⟨(i 0).val / 512, ht⟩ (1 : Fin 2) * 4096 + 4096
    omega

/-- THE QUANTISED WEIGHT ARRAY after the region. -/
theorem quantFinal (c : Dev nD) :
    (dat0 V c).arrAt 3 cfg0.N = quantWeight (V c main_arg1) (V c main_v0) (V c main_v1) :=
  (dat0 V c).arrAt_eq_of_cover 3 _ (fun t _ => quantFlushed V c t) (fun i => quantCover i)

/-! ## The product region -/

/-- The block each window sits at, over the thirty-two points (point `t` is `(t / 8, t % 8)` of the 4×8 grid). -/
theorem blockAt1 : ∀ t : Fin cfg1.N, win1_0.index t (0 : Fin 2) = t.val / 8 ∧ win1_0.index t (1 : Fin 2) = 0
    ∧ win1_1.index t (0 : Fin 2) = t.val % 8 ∧ win1_1.index t (1 : Fin 2) = 0
    ∧ win1_2.index t (0 : Fin 2) = 0 ∧ win1_2.index t (1 : Fin 2) = t.val % 8
    ∧ win1_3.index t (0 : Fin 2) = t.val / 8 ∧ win1_3.index t (1 : Fin 2) = t.val % 8 :=
  (by decide +kernel : ∀ t : Fin grid1.N, _)

theorem lt32 (t : Fin cfg1.N) : t.val < 32 := lt_of_lt_of_eq t.isLt (show cfg1.N = 32 from N_1)

/-- Row `p` of the input block at point `t`, as a row of the input. -/
def xrow (t : Fin cfg1.N) (p : Fin 2048) : Fin 8192 :=
  ⟨t.val / 8 * 2048 + p.val, by have := lt32 t; have := p.isLt; omega⟩

/-- Row `q` of the weight block at point `t`, as a row of the weight (and an entry of the bias). -/
def qrow (t : Fin cfg1.N) (q : Fin 512) : Fin 4096 :=
  ⟨t.val % 8 * 512 + q.val, by have := q.isLt; omega⟩

theorem inputBlock (c : Dev nD) (t : Fin cfg1.N) (p : Fin 2048) (k : Fin 4096) :
    iblk1 V c 0 t (ix2 p k) = V c main_v3 (ix2 (xrow t p) k) := by
  obtain ⟨e0, e1, -⟩ := blockAt1 t
  have h : ((cfg1.win 0).blk t).view.emb (ix2 p k) = ix2 (xrow t p) k := by
    funext a; apply Fin.ext
    match a with
    | ⟨0, _⟩ => show win1_0.index t (0 : Fin 2) * 2048 + 1 * p.val = t.val / 8 * 2048 + p.val; omega
    | ⟨1, _⟩ => show win1_0.index t (1 : Fin 2) * 4096 + 1 * k.val = k.val; omega
  show V c main_v3 (((cfg1.win 0).blk t).view.emb (ix2 p k)) = _
  rw [h]

theorem weightRows (c : Dev nD) (t : Fin cfg1.N) (q : Fin 512) (k : Fin 4096) :
    iblk1 V c 1 t (ix2 q k) = V c main_v2 (ix2 (qrow t q) k) := by
  obtain ⟨-, -, e2, e3, -⟩ := blockAt1 t
  have h : ((cfg1.win 1).blk t).view.emb (ix2 q k) = ix2 (qrow t q) k := by
    funext a; apply Fin.ext
    match a with
    | ⟨0, _⟩ => show win1_1.index t (0 : Fin 2) * 512 + 1 * q.val = t.val % 8 * 512 + q.val; omega
    | ⟨1, _⟩ => show win1_1.index t (1 : Fin 2) * 4096 + 1 * k.val = k.val; omega
  show V c main_v2 (((cfg1.win 1).blk t).view.emb (ix2 q k)) = _
  rw [h]

theorem biasBlock (c : Dev nD) (t : Fin cfg1.N) (q : Fin 512) :
    iblk1 V c 2 t (ix2 (0 : Fin 1) q) = V c main_v4 (ix2 (0 : Fin 1) (qrow t q)) := by
  obtain ⟨-, -, -, -, e4, e5, -⟩ := blockAt1 t
  have h : ((cfg1.win 2).blk t).view.emb (ix2 (0 : Fin 1) q) = ix2 (0 : Fin 1) (qrow t q) := by
    funext a; apply Fin.ext
    match a with
    | ⟨0, _⟩ => show win1_2.index t (0 : Fin 2) * 1 + 1 * 0 = 0; omega
    | ⟨1, _⟩ => show win1_2.index t (1 : Fin 2) * 512 + 1 * q.val = t.val % 8 * 512 + q.val; omega
  show V c main_v4 (((cfg1.win 2).blk t).view.emb (ix2 (0 : Fin 1) q)) = _
  rw [h]

theorem prodOut (t : Fin cfg1.N) (p : Fin 2048) (q : Fin 512) :
    ((cfg1.win 3).blk t).view.emb (ix2 p q) = ix2 (xrow t p) (qrow t q) := by
  obtain ⟨-, -, -, -, -, -, e6, e7⟩ := blockAt1 t
  funext a; apply Fin.ext
  match a with
  | ⟨0, _⟩ => show win1_3.index t (0 : Fin 2) * 2048 + 1 * p.val = t.val / 8 * 2048 + p.val; omega
  | ⟨1, _⟩ => show win1_3.index t (1 : Fin 2) * 512 + 1 * q.val = t.val % 8 * 512 + q.val; omega

/-- The product of an 8192×4096 array with the rows of a 4096×4096 one, plus a bias row: entry `(t, o)`. -/
def prodArray (X : S8192x4096.Idx → EReal) (Q : S4096x4096.Idx → EReal) (b : S1x4096.Idx → EReal) : S8192x4096.Idx → EReal :=
  fun j => (∑ k : Fin 4096, X (ix2 (j 0) k) * Q (ix2 (j 1) k)) + b (ix2 (0 : Fin 1) (j 1))

theorem prodArray_ix2 (X : S8192x4096.Idx → EReal) (Q : S4096x4096.Idx → EReal) (b : S1x4096.Idx → EReal)
    (t : Fin 8192) (o : Fin 4096) :
    prodArray X Q b (ix2 t o) = (∑ k : Fin 4096, X (ix2 t k) * Q (ix2 o k)) + b (ix2 (0 : Fin 1) o) := rfl

/-- WHAT POINT `t` WRITES BACK is block `t` of the product of the region's arrays. -/
theorem prodFlushed (c : Dev nD) (t : Fin cfg1.N) :
    (dat1 V c).flushed 3 t
      = ((cfg1.win 3).blk t).view.read (Elt Ideal) (prodArray (V c main_v3) (V c main_v2) (V c main_v4)) := by
  show (cfg1.win 3).cut (grid1.coords t) ((dat1 V c).after 3 t) = _
  rw [after1_3]
  unfold out1_3
  rw [View.canon_unit_zero zeros]
  simp only [View.ld_unit_zero (S := S2048x4096) zeros, View.ld_unit_zero (S := S512x4096) zeros, View.ld_unit_zero (S := S1x512) zeros]
  funext y
  obtain ⟨p, q, rfl⟩ : ∃ (p : Fin 2048) (q : Fin 512), y = ix2 p q := ⟨y 0, y 1, eq_ix2 y⟩
  show k1_pay1 (F := Ideal) (iblk1 V c 0 t) (iblk1 V c 1 t) (iblk1 V c 2 t) (ix2 p q)
    = prodArray (V c main_v3) (V c main_v2) (V c main_v4) (((cfg1.win 3).blk t).view.emb (ix2 p q))
  rw [prodOut, prodArray_ix2]
  refine (prodBody_apply (iblk1 V c 0 t) (iblk1 V c 1 t) (iblk1 V c 2 t) p q).trans ?_
  rw [biasBlock]
  refine congrArg (· + _) (Finset.sum_congr rfl fun k _ => ?_)
  rw [inputBlock, weightRows]

theorem prodMem (t : Fin cfg1.N) (i : S8192x4096.Idx) :
    i ∈ ((cfg1.win 3).blk t).view.set ↔ ∀ a : Fin 2, win1_3.index t a * S2048x512.size a ≤ (i a).val
      ∧ (i a).val < win1_3.index t a * S2048x512.size a + S2048x512.size a := by
  show i ∈ ((View.whole main_v5).slice (win1_3.rect t)).set ↔ _
  rw [View.set_slice_whole, Rect.mem_set_unit]
  exact Iff.rfl

/-- Entry `(r, o)` of the output is in the block of the point `(r / 2048, o / 512)`. -/
theorem prodCover (i : S8192x4096.Idx) :
    ∃ t : Fin cfg1.N, (cfg1.win 3).flush t = true ∧ i ∈ ((cfg1.win 3).blk t).view.set := by
  have hi0 : (i 0).val < 8192 := (i 0).isLt
  have hi1 : (i 1).val < 4096 := (i 1).isLt
  have ht : (i 0).val / 2048 * 8 + (i 1).val / 512 < cfg1.N := by rw [show cfg1.N = 32 from N_1]; omega
  obtain ⟨-, -, -, -, -, -, e6, e7⟩ := blockAt1 ⟨(i 0).val / 2048 * 8 + (i 1).val / 512, ht⟩
  refine ⟨⟨(i 0).val / 2048 * 8 + (i 1).val / 512, ht⟩, flush1_3 _, ?_⟩
  rw [prodMem]
  intro a
  match a with
  | ⟨0, _⟩ =>
    show win1_3.index ⟨(i 0).val / 2048 * 8 + (i 1).val / 512, ht⟩ (0 : Fin 2) * 2048 ≤ (i 0).val
      ∧ (i 0).val < win1_3.index ⟨(i 0).val / 2048 * 8 + (i 1).val / 512, ht⟩ (0 : Fin 2) * 2048 + 2048
    have e : win1_3.index ⟨(i 0).val / 2048 * 8 + (i 1).val / 512, ht⟩ (0 : Fin 2)
        = ((i 0).val / 2048 * 8 + (i 1).val / 512) / 8 := e6
    omega
  | ⟨1, _⟩ =>
    show win1_3.index ⟨(i 0).val / 2048 * 8 + (i 1).val / 512, ht⟩ (1 : Fin 2) * 512 ≤ (i 1).val
      ∧ (i 1).val < win1_3.index ⟨(i 0).val / 2048 * 8 + (i 1).val / 512, ht⟩ (1 : Fin 2) * 512 + 512
    have e : win1_3.index ⟨(i 0).val / 2048 * 8 + (i 1).val / 512, ht⟩ (1 : Fin 2)
        = ((i 0).val / 2048 * 8 + (i 1).val / 512) % 8 := e7
    omega

/-- THE OUTPUT ARRAY after the region. -/
theorem prodFinal (c : Dev nD) :
    (dat1 V c).arrAt 3 cfg1.N = prodArray (V c main_v3) (V c main_v2) (V c main_v4) :=
  (dat1 V c).arrAt_eq_of_cover 3 _ (fun t _ => prodFlushed V c t) (fun i => prodCover i)

end Cert.KernelIdeal.Regions

end
-- ==== Proof.KernelRun.lean ====
/-
  The idealized kernel's run with its result named.  The program is four stretches: host operations (the two slices),
  the quantising region, host operations (the input's change of format, the bias recast as a row), and the product
  region.  Running them in order, every buffer the TensorCore holds ends at the last boundary's contents: the fold
  `W4` of the stretches over the launch memory, in which a region replaces each of its arrays by what its
  write-backs leave.  So the result buffer ends at `W4` read there, and the five arguments end as launched.
-/
import proofs.«145042_j27273042330100_2_alg».proof.Proof.Gen.KernelIdeal.Frame

set_option maxRecDepth 16384

noncomputable section

namespace Cert.KernelIdeal.ResultRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program ends, without a fault, with the result buffer at the last
    boundary's contents and the arguments as launched. -/
theorem run : θ_run defs (onTc (τ := τ) (main (F := F))) ⟨m, fun _ => 0, ρ⟩ (fun r => ∀ c : Dev nD,
      r.2.mem ((c.tc : Thread nD τ).loc main_v5) = W4 m ρ c (Proc.devRef .tc main_v5)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v5 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c)⟩)

end Cert.KernelIdeal.ResultRun

end
-- ==== Proof.KernelValue.lean ====
/-
  The idealized kernel's result is the layer of its arguments.

  Read back from the last boundary: the result array is what the product region's write-backs leave — the product of
  the arrays that region is entered with.  Those are the input after its change of format (the identity on the
  extended reals), the bias recast as one row, and the weight array as the quantising region left it, which the host
  operations in between do not touch.  That array in turn is the quantised merged weight of the arrays the
  quantising region is entered with: the stored weight, untouched since launch, and the two factors' slices.
-/
import proofs.«145042_j27273042330100_2_alg».proof.Proof.Gen.KernelIdeal.Frame
import proofs.«145042_j27273042330100_2_alg».proof.Proof.KernelRegions
import proofs.«145042_j27273042330100_2_alg».proof.Proof.KernelRun
import proofs.«145042_j27273042330100_2_alg».proof.Proof.LayerSpec
import Idealize.ShloMosaic.Lib.StableHlo.Run
import Idealize.ShloMosaic.Lib.ValueLayout

set_option maxRecDepth 16384

noncomputable section

namespace Cert.KernelIdeal.Layer

open Cert.KernelIdeal Cert.KernelIdeal.Gen Cert.KernelIdeal.Regions Cert.QuantLinear
open Idealize.ShloMosaic Idealize.ShloMosaic.TcCoe Idealize.SL.Sem Idealize.ShloMosaic.ValueIdx
open Idealize.ShloMosaic.StableHlo

variable (m : (ℓ : Loc nD τ sig) → Buf (Elt Ideal) ℓ) (ρ : Dev nD → PrngReg)

/-! ## What the quantising region is entered with -/

theorem entry_weight (c : Dev nD) : V1 m ρ c main_arg1 = (m ((c : Thread nD τ).loc main_arg1)) := by
  show StableHlo.after hostOps0 (W0 m ρ c) (Proc.devRef .tc main_arg1) = _
  after_results

theorem entry_left (c : Dev nD) : V1 m ρ c main_v0 = leftFactor (m ((c : Thread nD τ).loc main_arg2)) := by
  show StableHlo.after hostOps0 (W0 m ρ c) (Proc.devRef .tc main_v0) = _
  after_results
  rfl

theorem entry_right (c : Dev nD) : V1 m ρ c main_v1 = rightFactor (m ((c : Thread nD τ).loc main_arg3)) := by
  show StableHlo.after hostOps0 (W0 m ρ c) (Proc.devRef .tc main_v1) = _
  after_results
  rfl

/-! ## What the product region is entered with -/

/-- The host operations before the quantising region do not write the input or the bias. -/
theorem launch_input (c : Dev nD) : W1 m ρ c (Proc.devRef .tc main_arg0) = (m ((c : Thread nD τ).loc main_arg0)) := by
  show StableHlo.after hostOps0 (W0 m ρ c) (Proc.devRef .tc main_arg0) = _
  after_results

theorem launch_bias (c : Dev nD) : W1 m ρ c (Proc.devRef .tc main_arg4) = (m ((c : Thread nD τ).loc main_arg4)) := by
  show StableHlo.after hostOps0 (W0 m ρ c) (Proc.devRef .tc main_arg4) = _
  after_results

/-- The input in its narrower format: on the extended reals, the input. -/
theorem mid_input (c : Dev nD) :
    (V3 m ρ c main_v3 : S8192x4096.Idx → EReal) = ((m ((c : Thread nD τ).loc main_arg0)) : S8192x4096.Idx → EReal) := by
  have e : (V3 m ρ c main_v3 : S8192x4096.Idx → EReal)
      = (truncf .bf16 (W2 m ρ c (Proc.devRef .tc main_arg0) : FVec Ideal S8192x4096 .f32) bitsLt_bf16_f32
          : FVec Ideal S8192x4096 .bf16) := by
    show StableHlo.after hostOps1 (W2 m ρ c) (Proc.devRef .tc main_v3) = _
    after_results
  rw [e, W2_of_ne m ρ c main_arg0 (by decide), launch_input]
  rfl

/-- The bias as one row. -/
theorem mid_bias (c : Dev nD) :
    (V3 m ρ c main_v4 : S1x4096.Idx → EReal) = shapeCast S1x4096 (m ((c : Thread nD τ).loc main_arg4)) shapeCasts_S4096_S1x4096 := by
  have e : (V3 m ρ c main_v4 : S1x4096.Idx → EReal)
      = shapeCast S1x4096 (W2 m ρ c (Proc.devRef .tc main_arg4)) shapeCasts_S4096_S1x4096 := by
    show StableHlo.after hostOps1 (W2 m ρ c) (Proc.devRef .tc main_v4) = _
    after_results
    rfl
  rw [e, W2_of_ne m ρ c main_arg4 (by decide), launch_bias]

/-- The weight array as the quantising region left it: the quantised merged weight of the launch arrays. -/
theorem mid_weight (c : Dev nD) :
    V3 m ρ c main_v2 = quantWeight (m ((c : Thread nD τ).loc main_arg1)) (leftFactor (m ((c : Thread nD τ).loc main_arg2))) (rightFactor (m ((c : Thread nD τ).loc main_arg3))) := by
  have e : V3 m ρ c main_v2 = W2 m ρ c (Proc.devRef .tc main_v2) := by
    show StableHlo.after hostOps1 (W2 m ρ c) (Proc.devRef .tc main_v2) = _
    after_results
  rw [e, show W2 m ρ c (Proc.devRef .tc main_v2) = (dat0 (V1 m ρ) c).arrAt 3 cfg0.N from W2_arr m ρ c 3,
    quantFinal, entry_weight, entry_left, entry_right]

/-! ## The result -/

/-- THE RESULT ARRAY at the last boundary is the layer of the launch arrays. -/
theorem result (c : Dev nD) :
    W4 m ρ c (Proc.devRef .tc main_v5)
      = layer (m ((c : Thread nD τ).loc main_arg0)) (m ((c : Thread nD τ).loc main_arg1)) (m ((c : Thread nD τ).loc main_arg2)) (m ((c : Thread nD τ).loc main_arg3)) (m ((c : Thread nD τ).loc main_arg4)) := by
  rw [show W4 m ρ c (Proc.devRef .tc main_v5) = (dat1 (V3 m ρ) c).arrAt 3 cfg1.N from W4_arr m ρ c 3,
    prodFinal, mid_input, mid_weight, mid_bias]
  funext j
  obtain ⟨t, o, rfl⟩ : ∃ (t : Fin 8192) (o : Fin 4096), j = ix2 t o := ⟨j 0, j 1, eq_ix2 j⟩
  unfold layer
  rw [prodArray_ix2, linear_ix2, shapeCast_a_1a_apply]

/-- Every weakly fair execution of the idealized kernel ends with the result buffer at the layer of the launch arrays
    and the arguments as launched. -/
theorem run : θ_run defs (onTc (τ := τ) (main (F := Ideal))) ⟨m, fun _ => 0, ρ⟩ (fun r => ∀ c : Dev nD,
      r.2.mem ((c.tc : Thread nD τ).loc main_v5)
        = layer (m ((c.tc : Thread nD τ).loc main_arg0)) (m ((c.tc : Thread nD τ).loc main_arg1))
            (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => ⟨(h c).1.trans (result m ρ c), (h c).2⟩) (Cert.KernelIdeal.ResultRun.run m ρ)

end Cert.KernelIdeal.Layer

end
-- ==== Proof.RefLayer.lean ====
/-
  The reference read as the layer.  Its program merges the weight with the rank-48 correction of the sliced
  factors, takes each row's least and greatest entry as columns, forms the step and the zero point column by column,
  quantises every entry against its row's columns, and multiplies the input by the quantised weight (both contracted
  along their second axis) before adding the bias broadcast over the rows.  Read one operation at a time at an
  entry, these are the layer's operations in the layer's order; the two reductions along the rows are folds of
  `min` and `max` over the row, and the reference's `-lo` is the layer's.
-/
import proofs.«145042_j27273042330100_2_alg».proof.Proof.Gen.ReferenceIdeal.Read
import proofs.«145042_j27273042330100_2_alg».proof.Proof.QuantSpec

noncomputable section

namespace Cert.ReferenceIdeal.Layer

open Cert.ReferenceIdeal Cert.ReferenceIdeal.Gen Cert.ReferenceIdeal.Read Cert.QuantLinear
open Idealize.ShloMosaic Idealize.ShloMosaic.ValueIdx

section Weight
variable (x1 : (⟨S4096x4096, .f32⟩ : BufTy).Contents (Elt Ideal)) (x2 : (⟨S4096x64, .f32⟩ : BufTy).Contents (Elt Ideal)) (x3 : (⟨S64x4096, .f32⟩ : BufTy).Contents (Elt Ideal))

/-- The merged weight at `(o, i)`: the stored entry plus the sum over `k` of the sliced factors at `(o, k)`, `(k, i)`. -/
theorem merged_apply (o i : Fin 4096) :
    val_main_v3 (F := Ideal) x1 x2 x3 (ix2 o i)
      = mergedRow x1 (val_main_v0 (F := Ideal) x2) (val_main_v1 (F := Ideal) x3) o i := by
  have el : ∀ k : Fin 48, lidx_main_v2 (ix2 o i) k = ix2 o k := fun k => funext fun a => Fin.ext (by match a with | ⟨0, _⟩ => rfl | ⟨1, _⟩ => rfl)
  have er : ∀ k : Fin 48, ridx_main_v2 (ix2 o i) k = ix2 k i := fun k => funext fun a => Fin.ext (by match a with | ⟨0, _⟩ => rfl | ⟨1, _⟩ => rfl)
  rw [val_main_v3_apply, val_main_v2_apply]
  simp only [el, er]
  rfl

/-- The least entry of row `o`. -/
theorem lo_apply (o : Fin 4096) : val_main_v4 (F := Ideal) x1 x2 x3 (ix1 o) = rowMin (mergedRow x1 (val_main_v0 (F := Ideal) x2) (val_main_v1 (F := Ideal) x3) o) := by
  unfold val_main_v4
  refine (hostRowFold_apply (FloatOps.minimumf (F := Ideal) (φ := .f32)) (val_main_v3 (F := Ideal) x1 x2 x3) (val_main_cst (F := Ideal))
    reducesTo_S4096x4096_S4096_d1 (by decide) h_S_ o).trans ?_
  exact congrArg (fun g => Finset.fold min (Ideal.ofBits .f32 0x7F800000#32) g (Finset.univ : Finset (Fin 4096)))
    (funext fun k => merged_apply x1 x2 x3 o k)

/-- The greatest entry of row `o`. -/
theorem hi_apply (o : Fin 4096) : val_main_v6 (F := Ideal) x1 x2 x3 (ix1 o) = rowMax (mergedRow x1 (val_main_v0 (F := Ideal) x2) (val_main_v1 (F := Ideal) x3) o) := by
  unfold val_main_v6
  refine (hostRowFold_apply (FloatOps.maximumf (F := Ideal) (φ := .f32)) (val_main_v3 (F := Ideal) x1 x2 x3) (val_main_cst_0 (F := Ideal))
    reducesTo_S4096x4096_S4096_d1 (by decide) h_S_ o).trans ?_
  exact congrArg (fun g => Finset.fold max (Ideal.ofBits .f32 0xFF800000#32) g (Finset.univ : Finset (Fin 4096)))
    (funext fun k => merged_apply x1 x2 x3 o k)

theorem col_ix (o : Fin 4096) : idx_main_v5 (ix2 o (0 : Fin 1)) = ix1 o :=
  funext fun a => Fin.ext (by match a with | ⟨0, _⟩ => rfl)

/-- The two as columns. -/
theorem loCol_apply (o : Fin 4096) : val_main_v5 (F := Ideal) x1 x2 x3 (ix2 o (0 : Fin 1)) = rowMin (mergedRow x1 (val_main_v0 (F := Ideal) x2) (val_main_v1 (F := Ideal) x3) o) := by
  rw [val_main_v5_apply, col_ix, lo_apply]

theorem hiCol_apply (o : Fin 4096) : val_main_v7 (F := Ideal) x1 x2 x3 (ix2 o (0 : Fin 1)) = rowMax (mergedRow x1 (val_main_v0 (F := Ideal) x2) (val_main_v1 (F := Ideal) x3) o) := by
  rw [val_main_v7_apply, show idx_main_v7 (ix2 o (0 : Fin 1)) = ix1 o from col_ix o, hi_apply]

/-- The step of row `o`. -/
theorem stepCol_apply (o : Fin 4096) : val_main_v11 (F := Ideal) x1 x2 x3 (ix2 o (0 : Fin 1)) = step (mergedRow x1 (val_main_v0 (F := Ideal) x2) (val_main_v1 (F := Ideal) x3) o) := by
  rw [val_main_v11_apply, val_main_v10_apply, val_main_v8_apply, hiCol_apply, loCol_apply]
  rfl

/-- The zero point of row `o`. -/
theorem zeroCol_apply (o : Fin 4096) : val_main_v14 (F := Ideal) x1 x2 x3 (ix2 o (0 : Fin 1)) = zeroPoint (mergedRow x1 (val_main_v0 (F := Ideal) x2) (val_main_v1 (F := Ideal) x3) o) := by
  rw [val_main_v14_apply, val_main_v13_apply, val_main_v12_apply, loCol_apply, stepCol_apply]
  rfl

/-- A column broadcast along the rows is read, at `(o, i)`, at `(o, 0)`. -/
theorem row_ix (o i : Fin 4096) : idx_main_v15 (ix2 o i) = ix2 o (0 : Fin 1) := funext fun a => Fin.ext (by match a with | ⟨0, _⟩ => rfl | ⟨1, _⟩ => rfl)

/-- THE QUANTISED WEIGHT at `(o, i)`. -/
theorem quant_apply (o i : Fin 4096) : val_main_v24 (F := Ideal) x1 x2 x3 (ix2 o i) = quant (mergedRow x1 (val_main_v0 (F := Ideal) x2) (val_main_v1 (F := Ideal) x3) o) i := by
  rw [val_main_v24_apply, val_main_v22_apply, val_main_v23_apply, val_main_v21_apply, val_main_v20_apply,
    val_main_call3_v2_apply, val_main_v19_apply, val_main_v18_apply, val_main_v17_apply, val_main_v16_apply,
    val_main_v15_apply,
    show idx_main_v23 (ix2 o i) = ix2 o (0 : Fin 1) from row_ix o i,
    show idx_main_v21 (ix2 o i) = ix2 o (0 : Fin 1) from row_ix o i,
    show idx_main_v18 (ix2 o i) = ix2 o (0 : Fin 1) from row_ix o i, row_ix,
    stepCol_apply, zeroCol_apply, merged_apply]
  rfl

end Weight

/-- THE REFERENCE'S RESULT is the layer of its arguments: the input against the quantised merged weight of the sliced
    factors, plus the bias. -/
theorem result_eq (x0 : (⟨S8192x4096, .f32⟩ : BufTy).Contents (Elt Ideal)) (x1 : (⟨S4096x4096, .f32⟩ : BufTy).Contents (Elt Ideal)) (x2 : (⟨S4096x64, .f32⟩ : BufTy).Contents (Elt Ideal)) (x3 : (⟨S64x4096, .f32⟩ : BufTy).Contents (Elt Ideal))
    (x4 : (⟨S4096, .f32⟩ : BufTy).Contents (Elt Ideal)) :
    val_main_v28 (F := Ideal) x0 x1 x2 x3 x4
      = linear x0 (quantWeight x1 (val_main_v0 (F := Ideal) x2) (val_main_v1 (F := Ideal) x3)) x4 := by
  funext j
  obtain ⟨t, o, rfl⟩ : ∃ (t : Fin 8192) (o : Fin 4096), j = ix2 t o := ⟨j 0, j 1, eq_ix2 j⟩
  have el : ∀ k : Fin 4096, lidx_main_v25 (ix2 t o) k = ix2 t k := fun k => funext fun a => Fin.ext (by match a with | ⟨0, _⟩ => rfl | ⟨1, _⟩ => rfl)
  have er : ∀ k : Fin 4096, ridx_main_v25 (ix2 t o) k = ix2 o k := fun k => funext fun a => Fin.ext (by match a with | ⟨0, _⟩ => rfl | ⟨1, _⟩ => rfl)
  have eb : idx_main_v26 (idx_main_v27 (ix2 t o)) = ix1 o := funext fun a => Fin.ext (by match a with | ⟨0, _⟩ => rfl)
  rw [val_main_v28_apply, val_main_v25_apply, val_main_v27_apply, val_main_v26_apply, eb]
  simp only [el, er, quant_apply]
  rfl

end Cert.ReferenceIdeal.Layer

end
-- ==== Proof.lean ====
/-
  A quantised linear layer, computed by two kernels, against its jnp reference: equal as extended reals.

  The layer.  From a weight `W` (4096×4096), low-rank factors `Bd` (4096×64) and `Bu` (64×4096), an input `X`
  (8192×4096) and a bias `b` (4096): merge `W` with the product of the leading 48 columns of `Bd` and the leading 48
  rows of `Bu`; quantise each merged row to sixteen levels between its least and greatest entry (step at least the
  f32 nearest 1e-8, zero point rounded to even); and return `X` against the quantised rows plus `b`
  (LayerSpec.lean, QuantSpec.lean).

  The kernel program quantises in one kernel, 512 rows at a time with each row whole in its block (so a row's
  minimum and maximum are taken over the whole row), stores the quantised weight in a narrower format, narrows the
  input likewise, and multiplies in a second kernel over a 4×8 grid of 2048×512 output blocks, each contracting the
  full 4096 columns at once.  The reference does the same on whole arrays.  On the extended reals a change of
  format is the identity, a product into a zero accumulator is the product, a sum is the same in any order, and
  `0 - x = -x`; every other operation, and every constant, is the same on both sides and in the same order.  So no
  inequality and no finiteness is used: the precondition is never opened.

  The parts: what each kernel body stores at an entry (KernelBodies.lean); each region's output array from its
  blocks (KernelRegions.lean); the kernel program's run with its result named (KernelRun.lean) and read back through
  the two regions to the launch arrays (KernelValue.lean); the reference read one operation at a time
  (RefLayer.lean).  The idealization rewrote nothing, so that claim is `True`.
-/
import proofs.«145042_j27273042330100_2_alg».proof.Defs
import proofs.«145042_j27273042330100_2_alg».proof.Proof.Gen.Kernel
import proofs.«145042_j27273042330100_2_alg».proof.Proof.Gen.Kernel.Skeleton
import proofs.«145042_j27273042330100_2_alg».proof.Proof.Gen.Kernel.Launch
import proofs.«145042_j27273042330100_2_alg».proof.Proof.Gen.Kernel.Points
import proofs.«145042_j27273042330100_2_alg».proof.Proof.Gen.Kernel.Frame
import proofs.«145042_j27273042330100_2_alg».proof.Proof.Gen.KernelIdeal
import proofs.«145042_j27273042330100_2_alg».proof.Proof.Gen.KernelIdeal.Skeleton
import proofs.«145042_j27273042330100_2_alg».proof.Proof.Gen.KernelIdeal.Launch
import proofs.«145042_j27273042330100_2_alg».proof.Proof.Gen.KernelIdeal.Points
import proofs.«145042_j27273042330100_2_alg».proof.Proof.Gen.KernelIdeal.Frame
import proofs.«145042_j27273042330100_2_alg».proof.Proof.Gen.ReferenceIdeal
import proofs.«145042_j27273042330100_2_alg».proof.Proof.Gen.Pre_finite_inputs
import proofs.«145042_j27273042330100_2_alg».proof.Proof.Gen.ReferenceIdeal.Run
import proofs.«145042_j27273042330100_2_alg».proof.Proof.Gen.ReferenceIdeal.Read
import proofs.«145042_j27273042330100_2_alg».proof.Proof.LayerSpec
import proofs.«145042_j27273042330100_2_alg».proof.Proof.KernelValue
import proofs.«145042_j27273042330100_2_alg».proof.Proof.RefLayer
import Idealize.ShloMosaic.Adequacy
import Idealize.ShloMosaic.Init

noncomputable section

namespace Cert.Proof

open Idealize.ShloMosaic Idealize.SL.Sem Cert.QuantLinear

/-- The word-level kernel program runs and leaves its arguments as launched. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- So does the reference: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The reference's result is the layer of its arguments (its slices of the factors are the layer's). -/
theorem reference_layer (x0 : (⟨Cert.ReferenceIdeal.S8192x4096, .f32⟩ : BufTy).Contents (Elt Ideal))
    (x1 : (⟨Cert.ReferenceIdeal.S4096x4096, .f32⟩ : BufTy).Contents (Elt Ideal))
    (x2 : (⟨Cert.ReferenceIdeal.S4096x64, .f32⟩ : BufTy).Contents (Elt Ideal))
    (x3 : (⟨Cert.ReferenceIdeal.S64x4096, .f32⟩ : BufTy).Contents (Elt Ideal))
    (x4 : (⟨Cert.ReferenceIdeal.S4096, .f32⟩ : BufTy).Contents (Elt Ideal)) :
    Cert.ReferenceIdeal.Read.val_main_v28 (F := Ideal) x0 x1 x2 x3 x4 = layer x0 x1 x2 x3 x4 :=
  Cert.ReferenceIdeal.Layer.result_eq x0 x1 x2 x3 x4

/-- From memories that agree on the arguments both programs end with the layer of those arguments in their result. -/
theorem algebraic : Cert.algebraic_KernelIdeal_ReferenceIdeal := by
  intro m ρ m' ρ' _ hagree
  refine ⟨_, Cert.KernelIdeal.Layer.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v28_eq, reference_layer, (hagree c).1, (hagree c).2.1, (hagree c).2.2.1,
    (hagree c).2.2.2.1, (hagree c).2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
